-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S1x2048x128 : S_.BroadcastsInDim S1x2048x128 (![] : Fin 0 → Fin S1x2048x128.rank)
  reducesTo_S1x2048x128_S_d0_1_2 : S1x2048x128.ReducesTo [0, 1, 2] S_
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S512x128 .f32) (main_arg1 : IVec S512 32) (main_arg2 : FVec F S1x2048x128 .f32) (main_arg3 : FVec F S1000x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S1x2048x128 .f32 := Host.absf main_arg2
  let main_cst_0 : FVec F S_ .f32 := constant S_ .f32 0x7F800000#32
  let main_v5 : FVec F S1x2048x128 .f32 := broadcastInDim S1x2048x128 ![] bcast_S_S1x2048x128 main_cst_0
  let main_v6 : IVec S1x2048x128 1 := cmpf .olt main_v4 main_v5
  let main_c_1 : IVec S_ 1 := constantI S_ 1 1#1
  let main_v7 : IVec S_ 1 := (fun x v => Host.reduce IntOp.andi x v reducesTo_S1x2048x128_S_d0_1_2 h_S_) main_v6 main_c_1
  let main_v8 : IVec S_ 1 := andi main_v3 main_v7
  let main_v9 : FVec F S1000x128 .f32 := Host.absf main_arg3
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  main_v13
-- ==== Kernel.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩
abbrev S512x1 : Shape := ⟨2, ![512, 1]⟩
abbrev S2048x128 : Shape := ⟨2, ![2048, 128]⟩
abbrev S128x2048 : Shape := ⟨2, ![128, 2048]⟩
abbrev S512x2048 : Shape := ⟨2, ![512, 2048]⟩
abbrev S32x128 : Shape := ⟨2, ![32, 128]⟩
abbrev S32x2048 : Shape := ⟨2, ![32, 2048]⟩
abbrev S128x32 : Shape := ⟨2, ![128, 32]⟩
abbrev S128x1 : Shape := ⟨2, ![128, 1]⟩
abbrev S2048 : Shape := ⟨1, ![2048]⟩
abbrev S1x2048 : Shape := ⟨2, ![1, 2048]⟩

abbrev nBuf : Space → Nat
  | .hbm => 17
  | .vmem => 5
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S1x2048x128, .f32⟩
  | .hbm, ⟨3, _⟩ => ⟨S1000x128, .f32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x128, .f32⟩
  | .hbm, ⟨13, _⟩ => ⟨S512x128, .f32⟩
  | .hbm, ⟨14, _⟩ => ⟨S2048x128, .f32⟩
  | .hbm, ⟨15, _⟩ => ⟨S128x2048, .f32⟩
  | .hbm, ⟨16, _⟩ => ⟨S512x2048, .f32⟩
  | .local _ .vmem, ⟨0, _⟩ => ⟨S32x128, .f32⟩
  | .local _ .vmem, ⟨1, _⟩ => ⟨S32x128, .f32⟩
  | .local _ .vmem, ⟨2, _⟩ => ⟨S128x2048, .f32⟩
  | .local _ .vmem, ⟨3, _⟩ => ⟨S32x2048, .f32⟩
  | .local _ .vmem, ⟨4, _⟩ => ⟨S32x2048, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x2048x128_S2048x128 : S1x2048x128.ShapeCasts S2048x128
  transposes_S2048x128_S128x2048_1_0 : S2048x128.Transposes [1, 0] S128x2048
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  transposes_S32x128_p1_0_S128x32 : S32x128.Transposes [1, 0] S128x32
  slices_S128x32_o0_0_S128x1 : S128x32.Slices ![0, 0] S128x1
  broadcasts_S128x1_S128x2048 : S128x1.Broadcasts S128x2048
  reduces_S128x2048_S2048 : S128x2048.Reduces [0] S2048
  inb_S32x2048_S1x2048_0_0 : ∀ a, (![0, 0] : Fin 2 → Nat) a + S1x2048.size a ≤ S32x2048.size a
  h_S1x2048 : 0 < S1x2048.numel
  shapeCasts_S1x2048_S2048 : S1x2048.ShapeCasts S2048
  shapeCasts_S2048_S1x2048 : S2048.ShapeCasts S1x2048
  slices_S128x32_o0_1_S128x1 : S128x32.Slices ![0, 1] S128x1
  inb_S32x2048_S1x2048_1_0 : ∀ a, (![1, 0] : Fin 2 → Nat) a + S1x2048.size a ≤ S32x2048.size a
  slices_S128x32_o0_2_S128x1 : S128x32.Slices ![0, 2] S128x1
  inb_S32x2048_S1x2048_2_0 : ∀ a, (![2, 0] : Fin 2 → Nat) a + S1x2048.size a ≤ S32x2048.size a
  slices_S128x32_o0_3_S128x1 : S128x32.Slices ![0, 3] S128x1
  inb_S32x2048_S1x2048_3_0 : ∀ a, (![3, 0] : Fin 2 → Nat) a + S1x2048.size a ≤ S32x2048.size a
  slices_S128x32_o0_4_S128x1 : S128x32.Slices ![0, 4] S128x1
  inb_S32x2048_S1x2048_4_0 : ∀ a, (![4, 0] : Fin 2 → Nat) a + S1x2048.size a ≤ S32x2048.size a
  slices_S128x32_o0_5_S128x1 : S128x32.Slices ![0, 5] S128x1
  inb_S32x2048_S1x2048_5_0 : ∀ a, (![5, 0] : Fin 2 → Nat) a + S1x2048.size a ≤ S32x2048.size a
  slices_S128x32_o0_6_S128x1 : S128x32.Slices ![0, 6] S128x1
  inb_S32x2048_S1x2048_6_0 : ∀ a, (![6, 0] : Fin 2 → Nat) a + S1x2048.size a ≤ S32x2048.size a
  slices_S128x32_o0_7_S128x1 : S128x32.Slices ![0, 7] S128x1
  inb_S32x2048_S1x2048_7_0 : ∀ a, (![7, 0] : Fin 2 → Nat) a + S1x2048.size a ≤ S32x2048.size a
  slices_S128x32_o0_8_S128x1 : S128x32.Slices ![0, 8] S128x1
  inb_S32x2048_S1x2048_8_0 : ∀ a, (![8, 0] : Fin 2 → Nat) a + S1x2048.size a ≤ S32x2048.size a
  slices_S128x32_o0_9_S128x1 : S128x32.Slices ![0, 9] S128x1
  inb_S32x2048_S1x2048_9_0 : ∀ a, (![9, 0] : Fin 2 → Nat) a + S1x2048.size a ≤ S32x2048.size a
  slices_S128x32_o0_10_S128x1 : S128x32.Slices ![0, 10] S128x1
  inb_S32x2048_S1x2048_10_0 : ∀ a, (![10, 0] : Fin 2 → Nat) a + S1x2048.size a ≤ S32x2048.size a
  slices_S128x32_o0_11_S128x1 : S128x32.Slices ![0, 11] S128x1
  inb_S32x2048_S1x2048_11_0 : ∀ a, (![11, 0] : Fin 2 → Nat) a + S1x2048.size a ≤ S32x2048.size a
  slices_S128x32_o0_12_S128x1 : S128x32.Slices ![0, 12] S128x1
  inb_S32x2048_S1x2048_12_0 : ∀ a, (![12, 0] : Fin 2 → Nat) a + S1x2048.size a ≤ S32x2048.size a
  slices_S128x32_o0_13_S128x1 : S128x32.Slices ![0, 13] S128x1
  inb_S32x2048_S1x2048_13_0 : ∀ a, (![13, 0] : Fin 2 → Nat) a + S1x2048.size a ≤ S32x2048.size a
  slices_S128x32_o0_14_S128x1 : S128x32.Slices ![0, 14] S128x1
  inb_S32x2048_S1x2048_14_0 : ∀ a, (![14, 0] : Fin 2 → Nat) a + S1x2048.size a ≤ S32x2048.size a
  slices_S128x32_o0_15_S128x1 : S128x32.Slices ![0, 15] S128x1
  inb_S32x2048_S1x2048_15_0 : ∀ a, (![15, 0] : Fin 2 → Nat) a + S1x2048.size a ≤ S32x2048.size a
  slices_S128x32_o0_16_S128x1 : S128x32.Slices ![0, 16] S128x1
  inb_S32x2048_S1x2048_16_0 : ∀ a, (![16, 0] : Fin 2 → Nat) a + S1x2048.size a ≤ S32x2048.size a
  slices_S128x32_o0_17_S128x1 : S128x32.Slices ![0, 17] S128x1
  inb_S32x2048_S1x2048_17_0 : ∀ a, (![17, 0] : Fin 2 → Nat) a + S1x2048.size a ≤ S32x2048.size a
  slices_S128x32_o0_18_S128x1 : S128x32.Slices ![0, 18] S128x1
  inb_S32x2048_S1x2048_18_0 : ∀ a, (![18, 0] : Fin 2 → Nat) a + S1x2048.size a ≤ S32x2048.size a
  slices_S128x32_o0_19_S128x1 : S128x32.Slices ![0, 19] S128x1
  inb_S32x2048_S1x2048_19_0 : ∀ a, (![19, 0] : Fin 2 → Nat) a + S1x2048.size a ≤ S32x2048.size a
  slices_S128x32_o0_20_S128x1 : S128x32.Slices ![0, 20] S128x1
  inb_S32x2048_S1x2048_20_0 : ∀ a, (![20, 0] : Fin 2 → Nat) a + S1x2048.size a ≤ S32x2048.size a
  slices_S128x32_o0_21_S128x1 : S128x32.Slices ![0, 21] S128x1
  inb_S32x2048_S1x2048_21_0 : ∀ a, (![21, 0] : Fin 2 → Nat) a + S1x2048.size a ≤ S32x2048.size a
  slices_S128x32_o0_22_S128x1 : S128x32.Slices ![0, 22] S128x1
  inb_S32x2048_S1x2048_22_0 : ∀ a, (![22, 0] : Fin 2 → Nat) a + S1x2048.size a ≤ S32x2048.size a
  slices_S128x32_o0_23_S128x1 : S128x32.Slices ![0, 23] S128x1
  inb_S32x2048_S1x2048_23_0 : ∀ a, (![23, 0] : Fin 2 → Nat) a + S1x2048.size a ≤ S32x2048.size a
  slices_S128x32_o0_24_S128x1 : S128x32.Slices ![0, 24] S128x1
  inb_S32x2048_S1x2048_24_0 : ∀ a, (![24, 0] : Fin 2 → Nat) a + S1x2048.size a ≤ S32x2048.size a
  slices_S128x32_o0_25_S128x1 : S128x32.Slices ![0, 25] S128x1
  inb_S32x2048_S1x2048_25_0 : ∀ a, (![25, 0] : Fin 2 → Nat) a + S1x2048.size a ≤ S32x2048.size a
  slices_S128x32_o0_26_S128x1 : S128x32.Slices ![0, 26] S128x1
  inb_S32x2048_S1x2048_26_0 : ∀ a, (![26, 0] : Fin 2 → Nat) a + S1x2048.size a ≤ S32x2048.size a
  slices_S128x32_o0_27_S128x1 : S128x32.Slices ![0, 27] S128x1
  inb_S32x2048_S1x2048_27_0 : ∀ a, (![27, 0] : Fin 2 → Nat) a + S1x2048.size a ≤ S32x2048.size a
  slices_S128x32_o0_28_S128x1 : S128x32.Slices ![0, 28] S128x1
  inb_S32x2048_S1x2048_28_0 : ∀ a, (![28, 0] : Fin 2 → Nat) a + S1x2048.size a ≤ S32x2048.size a
  slices_S128x32_o0_29_S128x1 : S128x32.Slices ![0, 29] S128x1
  inb_S32x2048_S1x2048_29_0 : ∀ a, (![29, 0] : Fin 2 → Nat) a + S1x2048.size a ≤ S32x2048.size a
  slices_S128x32_o0_30_S128x1 : S128x32.Slices ![0, 30] S128x1
  inb_S32x2048_S1x2048_30_0 : ∀ a, (![30, 0] : Fin 2 → Nat) a + S1x2048.size a ≤ S32x2048.size a
  slices_S128x32_o0_31_S128x1 : S128x32.Slices ![0, 31] S128x1
  inb_S32x2048_S1x2048_31_0 : ∀ a, (![31, 0] : Fin 2 → Nat) a + S1x2048.size a ≤ S32x2048.size a
  gather_S1000x128_S512x1_S512x128_1_0_n_n_0_1_1128_wf : GatherDims.WF S1000x128 S512x1 S512x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S512x128.size a
  hwx0_0 : ∀ i : grid0.Coords, EltTy.bits .f32 = 32 ∨ (Rect.block (s := S512x128) S32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S512x2048.size a
  hwx0_2 : ∀ i : grid0.Coords, EltTy.bits .f32 = 32 ∨ (Rect.block (s := S512x2048) S32x2048.size (cc0_transform_2 i) (hinb0_2 i)).WholeWords (EltTy.packing .f32)

variable [Facts₀]

def gather_S1000x128_S512x1_S512x128_1_0_n_n_0_1_1128 : GatherDims S1000x128 S512x1 S512x128 where
  offsetDims := [1]
  collapsedSliceDims := [0]
  operandBatchingDims := []
  startIndicesBatchingDims := []
  startIndexMap := [0]
  indexVectorDim := 1
  sliceSizes := ![1, 128]
  wf := gather_S1000x128_S512x1_S512x128_1_0_n_n_0_1_1128_wf

abbrev win0_0 : Pipeline.Window sig grid0 :=
  Pipeline.Window.ofSpec (Memref.whole main_v7) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S32x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x128 : Shape := ⟨2, ![512, 128]⟩
abbrev S512 : Shape := ⟨1, ![512]⟩
abbrev S1x2048x128 : Shape := ⟨3, ![1, 2048, 128]⟩
abbrev S1000x128 : Shape := ⟨2, ![1000, 128]⟩
abbrev S_ : Shape := ⟨0, ![]⟩
abbrev S512x1 : Shape := ⟨2, ![512, 1]⟩
abbrev S2048x128 : Shape := ⟨2, ![2048, 128]⟩
abbrev S512x1x128 : Shape := ⟨3, ![512, 1, 128]⟩
abbrev S512x2048x128 : Shape := ⟨3, ![512, 2048, 128]⟩
abbrev S512x2048 : Shape := ⟨2, ![512, 2048]⟩

abbrev nBuf : Space → Nat
  | .hbm => 24
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S1x2048x128, .f32⟩
  | .hbm, ⟨3, _⟩ => ⟨S1000x128, .f32⟩
  | .hbm, ⟨4, _⟩ => ⟨S_, .i32⟩
  | .hbm, ⟨5, _⟩ => ⟨S512, .i32⟩
  | .hbm, ⟨6, _⟩ => ⟨S512, .i1⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x128, .f32⟩
  | .hbm, ⟨13, _⟩ => ⟨S512x128, .f32⟩
  | .hbm, ⟨14, _⟩ => ⟨S2048x128, .f32⟩
  | .hbm, ⟨15, _⟩ => ⟨S512x1x128, .f32⟩
  | .hbm, ⟨16, _⟩ => ⟨S1x2048x128, .f32⟩
  | .hbm, ⟨17, _⟩ => ⟨S512x2048x128, .f32⟩
  | .hbm, ⟨18, _⟩ => ⟨S512x2048x128, .f32⟩
  | .hbm, ⟨19, _⟩ => ⟨S512x2048x128, .f32⟩
  | .hbm, ⟨20, _⟩ => ⟨S512x2048x128, .f32⟩
  | .hbm, ⟨21, _⟩ => ⟨S_, .f32⟩
  | .hbm, ⟨22, _⟩ => ⟨S512x2048, .f32⟩
  | .hbm, ⟨23, _⟩ => ⟨S512x2048, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  shapeCasts_S1x2048x128_S2048x128 : S1x2048x128.ShapeCasts S2048x128
  bcast_S512x128_S512x1x128_0_2 : S512x128.BroadcastsInDim S512x1x128 (![0, 2] : Fin 2 → Fin S512x1x128.rank)
  bcast_S2048x128_S1x2048x128_1_2 : S2048x128.BroadcastsInDim S1x2048x128 (![1, 2] : Fin 2 → Fin S1x2048x128.rank)
  bcast_S512x1x128_S512x2048x128_0_1_2 : S512x1x128.BroadcastsInDim S512x2048x128 (![0, 1, 2] : Fin 3 → Fin S512x2048x128.rank)
  bcast_S1x2048x128_S512x2048x128_0_1_2 : S1x2048x128.BroadcastsInDim S512x2048x128 (![0, 1, 2] : Fin 3 → Fin S512x2048x128.rank)
  reducesTo_S512x2048x128_S512x2048_d2 : S512x2048x128.ReducesTo [2] S512x2048
  h_S_ : 0 < S_.numel
  gather_S1000x128_S512x1_S512x128_1_0_n_n_0_1_1128_wf : GatherDims.WF S1000x128 S512x1 S512x128 [1] [0] [] [0] [] 1 ![1, 128]

variable [Facts₀]

def gather_S1000x128_S512x1_S512x128_1_0_n_n_0_1_1128 : GatherDims S1000x128 S512x1 S512x128 where
  offsetDims := [1]
  collapsedSliceDims := [0]
  operandBatchingDims := []
  startIndicesBatchingDims := []
  startIndexMap := [0]
  indexVectorDim := 1
  sliceSizes := ![1, 128]
  wf := gather_S1000x128_S512x1_S512x128_1_0_n_n_0_1_1128_wf

class Facts : Prop extends Facts₀ where

variable [Facts]
-- ==== Proof.L1Spec.lean ====
/-
  The score both programs compute, as ONE function of two arrays over the extended reals.

  For a query array `Q` of 512 rows and a candidate array `T` of 2048 rows, both of width 128, the entry (p, q) of
  the result is minus the L1 distance between row p of `Q` and row q of `T`:

      score Q T p q = -(∑ d < 128, |Q (p, d) - T (q, d)|),      |x| = max x (-x).

  The absolute value is written `max x (-x)` because that is what it is on the extended reals for both programs
  (at +∞ and at -∞ it is +∞). Nothing here needs the entries to be finite: the two programs differ only in the
  ORDER in which they lay the 128 terms out (the kernel keeps the width on the first axis of a transposed block, the
  reference on the last axis of a three-axis array) and in how they negate (`0 - s` against `-s`); a finite sum over
  `Fin 128` does not depend on the layout of its terms, and `0 - s = -s` holds for every extended real `s`, the
  infinities included.
-/
import Idealize.ShloMosaic.PureOps.Ideal
import Idealize.ShloMosaic.Lib.ValueIdx

noncomputable section

open scoped BigOperators

namespace Cert.L1Score

open Idealize.ShloMosaic Idealize.ShloMosaic.ValueIdx

/-- The absolute value on the extended reals: the larger of `x` and `-x`. -/
def eabs (x : EReal) : EReal := max x (-x)

/-- Minus the L1 distance between row `p` of `Q` and row `q` of `T`, for arrays of any numbers of rows. -/
def score {a b : ℕ} (Q : (⟨2, ![a, 128]⟩ : Shape).Idx → EReal) (T : (⟨2, ![b, 128]⟩ : Shape).Idx → EReal)
    (p : Fin a) (q : Fin b) : EReal :=
  -(∑ d : Fin 128, eabs (Q (ix2 p d) - T (ix2 q d)))

/-- The whole result array: entry (p, q) is `score Q T p q`. -/
def scores (Q : (⟨2, ![512, 128]⟩ : Shape).Idx → EReal) (T : (⟨2, ![2048, 128]⟩ : Shape).Idx → EReal) :
    (⟨2, ![512, 2048]⟩ : Shape).Idx → EReal :=
  fun i => score Q T (i 0) (i 1)

theorem scores_apply (Q : (⟨2, ![512, 128]⟩ : Shape).Idx → EReal) (T : (⟨2, ![2048, 128]⟩ : Shape).Idx → EReal)
    (p : Fin 512) (q : Fin 2048) : scores Q T (ix2 p q) = score Q T p q := rfl

/-- Subtracting from zero is negating, for every extended real (the infinities too: `0 - ⊤ = ⊥ = -⊤`). -/
theorem zero_sub_eq_neg (s : EReal) : 0 - s = -s := by
  rw [sub_eq_add_neg, zero_add]

end Cert.L1Score

end
-- ==== Proof.RowPiece.lean ====
/-
  One row of the kernel's output block, read at an index.

  At a grid point the kernel holds a block `P0` of 32 query rows (32 × 128) and the whole transposed candidate array
  `P1` (128 × 2048). For each of the 32 rows `b` it takes column `b` of the transpose of `P0` (a 128 × 1 column whose
  entry `d` is `P0 (b, d)`), repeats it along the 2048 lanes, subtracts `P1`, takes absolute values, adds up the 128
  entries of each lane (a sum over the FIRST axis), subtracts the sums from zero, and stores the 2048 results as row `b`.
  So the stored row, at lane `n`, is

      0 - ∑ d < 128, |P0 (b, d) - P1 (d, n)|  =  -(∑ d < 128, |P0 (b, d) - P1 (d, n)|).

  `col_apply` reads the repeated column at (d, n); `row_apply` reads the whole stored row at lane `n`. Both are stated
  for ANY slice offset `off` whose two components are 0 and `b`, and for any witnesses of the shape relations, so that
  one statement serves all 32 rows.
-/
import proofs.«175675_j19370302505582_2_alg».proof.KernelIdeal
import proofs.«175675_j19370302505582_2_alg».proof.Proof.L1Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowValue

open Cert.KernelIdeal Cert.L1Score Idealize.ShloMosaic Idealize.ShloMosaic.ValueIdx

/-- What one row of the block holds at lane `n`, from the two operands the body loads: `P0` by (row, width),
    `P1` by (width, lane). -/
def rowScore (P0 : FVec Ideal S32x128 .f32) (P1 : FVec Ideal S128x2048 .f32) (b : Fin 32) (n : Fin 2048) : EReal :=
  -(∑ d : Fin 128, eabs (P0 (ix2 b d) - P1 (ix2 d n)))

/-- The block the 32 rows make up: entry (b, n) is `rowScore P0 P1 b n`. -/
def blockScore (P0 : FVec Ideal S32x128 .f32) (P1 : FVec Ideal S128x2048 .f32) : FVec Ideal S32x2048 .f32 :=
  fun y => rowScore P0 P1 (y 0) (y 1)

/-- Column `b` of the transposed query block, repeated along the lanes, holds `P0 (b, d)` at (d, n). -/
theorem col_apply (P0 : FVec Ideal S32x128 .f32) (off : Fin 2 → ℕ) (b : Fin 32) (h0 : off 0 = 0) (h1 : off 1 = b.val)
    (hc : S32x128.ShapeCasts S32x128) (ht : S32x128.Transposes [1, 0] S128x32) (hs : S128x32.Slices off S128x1)
    (hb : S128x1.Broadcasts S128x2048) (d : Fin 128) (n : Fin 2048) :
    broadcastTo S128x2048 (extractStridedSlice S128x1 off (transpose S128x32 [1, 0] (shapeCast S32x128 P0 hc) ht) hs) hb
        (ix2 d n) = P0 (ix2 b d) := by
  rw [shapeCast_self]
  refine (broadcastTo_apply _ hb (ix2 d n) (ix2 d (0 : Fin 1)) ?_).trans ?_
  · intro a
    match a with
    | ⟨0, _⟩ => show d.val = if (128 : ℕ) = 1 then 0 else d.val; rw [if_neg (by decide)]
    | ⟨1, _⟩ => show 0 = if (1 : ℕ) = 1 then 0 else n.val; rw [if_pos rfl]
  refine (extractStridedSlice_apply off _ hs (ix2 d (0 : Fin 1)) (ix2 d b) ?_).trans ?_
  · intro a
    match a with
    | ⟨0, _⟩ => show d.val = off 0 + d.val; omega
    | ⟨1, _⟩ => show b.val = off 1 + 0; omega
  exact transpose_ix2_apply P0 ht d b

/-- The stored row at lane `n`: the first-axis sum of the absolute differences, subtracted from zero, is minus
    that sum. -/
theorem row_apply (P0 : FVec Ideal S32x128 .f32) (P1 : FVec Ideal S128x2048 .f32) (off : Fin 2 → ℕ) (b : Fin 32)
    (h0 : off 0 = 0) (h1 : off 1 = b.val)
    (hc : S32x128.ShapeCasts S32x128) (ht : S32x128.Transposes [1, 0] S128x32) (hs : S128x32.Slices off S128x1)
    (hb : S128x1.Broadcasts S128x2048) (hc1 : S128x2048.ShapeCasts S128x2048) (hr : S128x2048.Reduces [0] S2048)
    (hφ : FKind.Formats .f32) (hacc : (0x00000000#32 : BitVec 32) = FKind.add.neutral .f32 hφ)
    (hc2 : S2048.ShapeCasts S1x2048) (u : Fin 1) (n : Fin 2048) :
    shapeCast S1x2048 (subf (broadcast S2048 (Scalar.ofBits .f32 0x00000000#32))
        (multiReduction .add [0] S2048
          (absf (subf (broadcastTo S128x2048 (extractStridedSlice S128x1 off
              (transpose S128x32 [1, 0] (shapeCast S32x128 P0 hc) ht) hs) hb) (shapeCast S128x2048 P1 hc1)))
          0x00000000#32 hr hφ hacc)) hc2 (ix2 u n)
      = rowScore P0 P1 b n := by
  refine (shapeCast_a_1a_apply _ hc2 u n).trans ?_
  refine (subf_apply _ _ (ix1 n)).trans ?_
  rw [broadcast_apply]
  refine (congrArg (fun s : EReal => (Scalar.ofBits (F := Ideal) .f32 0x00000000#32 : EReal) - s)
    (Ideal.multiReduction_add_single _ 0x00000000#32 hr hφ hacc (ix1 n))).trans ?_
  show Ideal.ofBits .f32 0x00000000#32 - _ = _
  rw [Ideal.ofBits_zero_f32, zero_sub_eq_neg]
  unfold rowScore
  refine congrArg Neg.neg (Finset.sum_congr rfl fun d _ => ?_)
  show eabs (broadcastTo S128x2048 (extractStridedSlice S128x1 off
      (transpose S128x32 [1, 0] (shapeCast S32x128 P0 hc) ht) hs) hb (ix2 d n) - shapeCast S128x2048 P1 hc1 (ix2 d n))
    = eabs (P0 (ix2 b d) - P1 (ix2 d n))
  rw [col_apply P0 off b h0 h1 hc ht hs hb d n, shapeCast_self]

end Cert.KernelIdeal.RowValue

end
-- ==== Proof.BlockCanon.lean ====
/-
  The output block a grid point leaves, as ONE function of the two blocks the body loads.

  The body writes its 32 × 2048 output buffer by 32 stores, store `k` through the rectangle made of row `k` alone
  (offset (k, 0), extent 1 × 2048). The payload of store `k` is the row read in `RowValue.row_apply` with slice
  offset (0, k). A rectangle of offset (k, 0) and unit strides places its local index (u, n), u < 1, at the buffer
  index (k + u, n) = (k, n); so every store's payload, at its local index, is `blockScore` at the buffer index under
  it (`piece_apply`), the 32 rectangles tile the buffer, and what the stores leave — whatever their order — is
  `blockScore` everywhere (`out_block`).
-/
import proofs.«175675_j19370302505582_2_alg».proof.Proof.Gen.KernelIdeal.Frame
import proofs.«175675_j19370302505582_2_alg».proof.Proof.RowPiece

set_option maxRecDepth 16384

noncomputable section

namespace Cert.KernelIdeal.BlockValue

open Cert.KernelIdeal Cert.KernelIdeal.Gen Cert.KernelIdeal.RowValue Idealize.ShloMosaic Idealize.ShloMosaic.ValueIdx

/-- The offset of a load or store that starts at the buffer's first element. -/
theorem offset_zero : (![0, 0] : Fin 2 → ℕ) = fun _ => 0 := funext fun a => by fin_cases a <;> rfl

/-- Store `k`'s payload at its local index `x` is `blockScore` at any buffer index `y` whose coordinates are
    (k + x₀, x₁) — which is where the row-`k` rectangle (offset (k, 0), unit strides) puts `x`. -/
theorem piece_apply (P0 : Vec Ideal S32x128 .f32) (P1 : Vec Ideal S128x2048 .f32) (k : ℕ) (hk : k < 32)
    (hc : S32x128.ShapeCasts S32x128) (ht : S32x128.Transposes [1, 0] S128x32) (hs : S128x32.Slices ![0, k] S128x1)
    (hb : S128x1.Broadcasts S128x2048) (hc1 : S128x2048.ShapeCasts S128x2048) (hr : S128x2048.Reduces [0] S2048)
    (hφ : FKind.Formats .f32) (hacc : (0x00000000#32 : BitVec 32) = FKind.add.neutral .f32 hφ)
    (hc2 : S2048.ShapeCasts S1x2048) (x : S1x2048.Idx) (y : S32x2048.Idx)
    (hy0 : (y 0).val = k + 1 * (x 0).val) (hy1 : (y 1).val = 0 + 1 * (x 1).val) :
    shapeCast S1x2048 (subf (broadcast S2048 (Scalar.ofBits .f32 0x00000000#32))
        (multiReduction .add [0] S2048
          (absf (subf (broadcastTo S128x2048 (extractStridedSlice S128x1 ![0, k]
              (transpose S128x32 [1, 0] (shapeCast S32x128 P0 hc) ht) hs) hb) (shapeCast S128x2048 P1 hc1)))
          0x00000000#32 hr hφ hacc)) hc2 x
      = blockScore P0 P1 y := by
  obtain ⟨u, n, rfl⟩ : ∃ (u : Fin 1) (n : Fin 2048), x = ix2 u n := ⟨x 0, x 1, eq_ix2 x⟩
  have hy0' : (y 0).val = k + 1 * u.val := hy0
  have hy1' : (y 1).val = 0 + 1 * n.val := hy1
  refine (row_apply P0 P1 ![0, k] ⟨k, hk⟩ rfl rfl hc ht hs hb hc1 hr hφ hacc hc2 u n).trans ?_
  unfold blockScore
  congr 1
  · exact Fin.ext (by show k = (y 0).val; omega)
  · exact Fin.ext (by show n.val = (y 1).val; omega)

/- One store of the list: either the piece at hand is the head — then it is row `k`'s store, read by
   `piece_apply` — or it is further down the list. -/
set_option hygiene false in
local macro "row_store " k:num : tactic =>
  `(tactic| (rcases List.mem_cons.mp hpc with rfl | hpc
             · exact fun x => piece_apply x0 x1 $k (by decide) _ _ _ _ _ _ _ _ _ x _ rfl rfl))

/-- What the 32 stores leave in the output buffer, from the two loaded blocks: `blockScore` at every index. -/
theorem out_block (x0 : Vec Ideal S32x128 .f32) (x1 : Vec Ideal S128x2048 .f32) (y : S32x2048.Idx) :
    out0_2 x0 x1 y = blockScore x0 x1 y := by
  unfold out0_2
  simp only [View.ld_unit_zero (S := S32x128) offset_zero, View.ld_unit_zero (S := S128x2048) offset_zero]
  refine View.canon_apply_of_pieces (Val := Elt Ideal) (e := .f32) (blockScore x0 x1) _ ?_ y
    (cover0_2 _ _ _ _ _ _ _ _ _ _ _ _ _ _ _ _ _ _ _ _ _ _ _ _ _ _ _ _ _ _ _ _ y)
  intro pc hpc
  row_store 31; row_store 30; row_store 29; row_store 28; row_store 27; row_store 26; row_store 25; row_store 24
  row_store 23; row_store 22; row_store 21; row_store 20; row_store 19; row_store 18; row_store 17; row_store 16
  row_store 15; row_store 14; row_store 13; row_store 12; row_store 11; row_store 10; row_store 9; row_store 8
  row_store 7; row_store 6; row_store 5; row_store 4; row_store 3; row_store 2; row_store 1; row_store 0
  nomatch hpc

end Cert.KernelIdeal.BlockValue

end
-- ==== Proof.KernelValue.lean ====
/-
  The kernel's output array after its run, as the score array of what the region is launched on.

  @main first forms, on the host, the query rows (512 × 128: head rows plus gathered relation rows) and the
  TRANSPOSED candidate rows (128 × 2048: the tail array with its unit axis dropped, then transposed), and launches
  the region on the two. The grid has 16 points; point `t` is given rows 32 t … 32 t + 31 of the query rows (block
  index (t, 0) of extent 32 × 128), the whole transposed candidate array (block index (0, 0)), and writes back rows
  32 t … 32 t + 31 of the 512 × 2048 output (block index (t, 0) of extent 32 × 2048).

  * `block_eq`: what point `t` writes back is block `t` of `scores Q T`, with `Q` the query rows as the region
    finds them and `T` the untransposed candidate rows. The body leaves `blockScore` of its two loaded blocks
    (`BlockValue.out_block`); entry (b, d) of the query block is `Q (32 t + b, d)`, entry (d, n) of the transposed
    candidate array is `T (n, d)`, and entry (b, n) of the output block sits at (32 t + b, n) of the array.
  * `covered`: row `r` of the output lies in the block of point `r / 32`, so the 16 blocks cover the array.
  * `array_eq`, `run`: hence the array after the run is `scores Q T` everywhere, the arguments unchanged.
-/
import proofs.«175675_j19370302505582_2_alg».proof.Proof.Gen.KernelIdeal.Frame
import proofs.«175675_j19370302505582_2_alg».proof.Proof.BlockCanon
import proofs.«175675_j19370302505582_2_alg».proof.Proof.L1Spec
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.ArrayValue

open Cert.KernelIdeal Cert.KernelIdeal.Gen Cert.KernelIdeal.RowValue Cert.KernelIdeal.BlockValue Cert.L1Score
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host hands to the region -/

/-- The query rows: the head rows plus the relation rows gathered at the (wrapped) relation indices. -/
def queryRows (a0 : FVec Ideal S512x128 .f32) (a1 : IVec S512 32) (a3 : FVec Ideal S1000x128 .f32) :
    FVec Ideal S512x128 .f32 :=
  addf (F := Ideal) a0 (Host.gather gather_S1000x128_S512x1_S512x128_1_0_n_n_0_1_1128 a3
    (broadcastInDim S512x1 ![0] bcast_S512_S512x1_0
      (select (cmpi .slt a1 (broadcastInDim S512 ![] bcast_S_S512 (constantI S_ 32 0#32)))
        (addi a1 (broadcastInDim S512 ![] bcast_S_S512 (constantI S_ 32 1000#32))) a1)))

/-- The candidate rows: the tail array with its leading unit axis dropped. -/
def candRows (a2 : FVec Ideal S1x2048x128 .f32) : FVec Ideal S2048x128 .f32 :=
  shapeCast S2048x128 a2 shapeCasts_S1x2048x128_S2048x128

/-- The region finds the query rows in its first operand's array. -/
theorem entry_query (c : Dev nD) :
    (V m c main_v7 : S512x128.Idx → EReal)
      = queryRows (m ((c : Thread nD τ).loc main_arg0)) (m ((c : Thread nD τ).loc main_arg1)) (m ((c : Thread nD τ).loc main_arg3)) := by
  dsimp only [Gen.V, Gen.hostOps0]
  after_results
  rfl

/-- The region finds the transposed candidate rows in its second operand's array. -/
theorem entry_cands (c : Dev nD) :
    (V m c main_v9 : S128x2048.Idx → EReal)
      = transpose S128x2048 [1, 0] (candRows (m ((c : Thread nD τ).loc main_arg2))) transposes_S2048x128_S128x2048_1_0 := by
  dsimp only [Gen.V, Gen.hostOps0]
  after_results
  rfl

/-- Entry (d, n) of the transposed candidate array is entry (n, d) of the candidate rows. -/
theorem entry_cands_apply (c : Dev nD) (d : Fin 128) (n : Fin 2048) :
    (V m c main_v9 : S128x2048.Idx → EReal) (ix2 d n) = candRows (m ((c : Thread nD τ).loc main_arg2)) (ix2 n d) := by
  rw [entry_cands]
  exact transpose_ix2_apply _ transposes_S2048x128_S128x2048_1_0 d n

/-! ## One point's block -/

/-- The printed index maps over the 16 grid points: the query block and the output block move together along the
    rows, the other block coordinates stay at zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the score array of the query rows and the candidate rows. -/
theorem block_eq (c : Dev nD) (t : Fin cfg0.N) :
    (dats m 0 c).flushed 2 t = ((cfg0.win 2).blk t).view.read (Elt Ideal)
      (scores (V m c main_v7) (candRows (m ((c : Thread nD τ).loc main_arg2)))) := by
  show (cfg0.win 2).cut (grid0.coords t) ((dats m 0 c).after 2 t) = _
  rw [after0_2]
  obtain ⟨e00, e01, e10, e11, e20, e21⟩ := index_facts t
  funext j
  refine (out_block (iblk m c 0 t) (iblk m c 1 t) j).trans ?_
  show rowScore (iblk m c 0 t) (iblk m c 1 t) (j 0) (j 1)
    = score (V m c main_v7) (candRows (m ((c : Thread nD τ).loc main_arg2)))
        ((((cfg0.win 2).blk t).view.emb j) 0) ((((cfg0.win 2).blk t).view.emb j) 1)
  unfold rowScore score
  refine congrArg Neg.neg (Finset.sum_congr rfl fun d _ => ?_)
  have hq : iblk m c 0 t (ix2 (j 0) d) = (V m c main_v7 : S512x128.Idx → EReal) (ix2 ((((cfg0.win 2).blk t).view.emb j) 0) d) := by
    show (V m c main_v7 : S512x128.Idx → EReal) (((cfg0.win 0).blk t).view.emb (ix2 (j 0) d)) = _
    refine congrArg (V m c main_v7 : S512x128.Idx → EReal) (funext fun a => Fin.ext ?_)
    match a with
    | ⟨0, _⟩ => show win0_0.index t (0 : Fin 2) * 32 + 1 * (j 0).val = win0_2.index t (0 : Fin 2) * 32 + 1 * (j 0).val; omega
    | ⟨1, _⟩ => show win0_0.index t (1 : Fin 2) * 128 + 1 * d.val = d.val; omega
  have hc : iblk m c 1 t (ix2 d (j 1)) = candRows (m ((c : Thread nD τ).loc main_arg2)) (ix2 ((((cfg0.win 2).blk t).view.emb j) 1) d) := by
    have hi : ((cfg0.win 1).blk t).view.emb (ix2 d (j 1)) = ix2 d ((((cfg0.win 2).blk t).view.emb j) 1) := by
      funext a; apply Fin.ext
      match a with
      | ⟨0, _⟩ => show win0_1.index t (0 : Fin 2) * 128 + 1 * d.val = d.val; omega
      | ⟨1, _⟩ => show win0_1.index t (1 : Fin 2) * 2048 + 1 * (j 1).val = win0_2.index t (1 : Fin 2) * 2048 + 1 * (j 1).val; omega
    show (V m c main_v9 : S128x2048.Idx → EReal) (((cfg0.win 1).blk t).view.emb (ix2 d (j 1))) = _
    rw [hi]
    exact entry_cands_apply m c d _
  rw [hq, hc]

/-! ## The blocks cover the array -/

/-- An index of the output array is in point `t`'s block iff each coordinate is in the block's range on its axis. -/
theorem mem_block (t : Fin cfg0.N) (i : S512x2048.Idx) :
    i ∈ ((cfg0.win 2).blk t).view.set ↔ ∀ a : Fin 2, win0_2.index t a * S32x2048.size a ≤ (i a).val
      ∧ (i a).val < win0_2.index t a * S32x2048.size a + S32x2048.size a := by
  show i ∈ ((View.whole main_v10).slice (win0_2.rect t)).set ↔ _
  rw [View.set_slice_whole, Rect.mem_set_unit]
  exact Iff.rfl

/-- Row `r` of the output lies in the block of point `r / 32`. -/
theorem covered (i : S512x2048.Idx) :
    ∃ t : Fin cfg0.N, (cfg0.win 2).flush t = true ∧ i ∈ ((cfg0.win 2).blk t).view.set := by
  have hi0 : (i 0).val < 512 := (i 0).isLt
  have hi1 : (i 1).val < 2048 := (i 1).isLt
  have ht : (i 0).val / 32 < cfg0.N := by show (i 0).val / 32 < 16; omega
  obtain ⟨-, -, -, -, e20, e21⟩ := index_facts ⟨(i 0).val / 32, ht⟩
  refine ⟨⟨(i 0).val / 32, ht⟩, flush0_2 _, ?_⟩
  rw [mem_block]
  intro a
  match a with
  | ⟨0, _⟩ =>
    show win0_2.index ⟨(i 0).val / 32, ht⟩ (0 : Fin 2) * 32 ≤ (i 0).val
      ∧ (i 0).val < win0_2.index ⟨(i 0).val / 32, ht⟩ (0 : Fin 2) * 32 + 32
    rw [e20]; show (i 0).val / 32 * 32 ≤ (i 0).val ∧ (i 0).val < (i 0).val / 32 * 32 + 32; omega
  | ⟨1, _⟩ =>
    show win0_2.index ⟨(i 0).val / 32, ht⟩ (1 : Fin 2) * 2048 ≤ (i 1).val
      ∧ (i 1).val < win0_2.index ⟨(i 0).val / 32, ht⟩ (1 : Fin 2) * 2048 + 2048
    rw [e21]; omega

/-! ## The array, and the run -/

/-- THE OUTPUT ARRAY after the run is the score array of the query rows and the candidate rows. -/
theorem array_eq (c : Dev nD) :
    (dats m 0 c).arrAt 2 cfg0.N
      = scores (queryRows (m ((c : Thread nD τ).loc main_arg0)) (m ((c : Thread nD τ).loc main_arg1)) (m ((c : Thread nD τ).loc main_arg3)))
          (candRows (m ((c : Thread nD τ).loc main_arg2))) := by
  rw [← entry_query m c]
  exact (dats m 0 c).arrAt_eq_of_cover 2 _ (fun t _ => block_eq m c t) covered

/-- The kernel's run: every weakly fair execution ends with the result at the score array, the arguments unchanged. -/
theorem run : θ_run defs (onTc (τ := τ) (main (F := Ideal))) ⟨m, fun _ => 0, ρ⟩ fun r => ∀ c : Dev nD,
      r.2.mem ((c : Thread nD τ).loc main_v10)
        = scores (queryRows (m ((c : Thread nD τ).loc main_arg0)) (m ((c : Thread nD τ).loc main_arg1)) (m ((c : Thread nD τ).loc main_arg3)))
            (candRows (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 2).trans (array_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.ArrayValue

end
-- ==== Proof.RefValue.lean ====
/-
  The reference's result, read at an index, is the score of its query rows and its candidate rows.

  The reference forms the query rows `Q` (512 × 128: the head rows plus the gathered relation rows) and the candidate
  rows `T` (2048 × 128: the tail array with its leading unit axis dropped), lays both out over a common
  512 × 2048 × 128 array — entry (p, q, d) of the first is `Q (p, d)`, of the second `T (q, d)` —, subtracts, takes
  absolute values, sums the last axis from zero and negates. At (p, q) that is

      -(0 + ∑ d < 128, |Q (p, d) - T (q, d)|)  =  score Q T p q.

  The query rows and the candidate rows are kept as the two terms the reference's own stages name; the gather
  inside the query rows is never opened.
-/
import proofs.«175675_j19370302505582_2_alg».proof.Proof.Gen.ReferenceIdeal.Read
import proofs.«175675_j19370302505582_2_alg».proof.Proof.L1Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.L1Score
open Idealize.ShloMosaic Idealize.ShloMosaic.ValueIdx

/-- Entry (p, q, d) of the query rows laid out over the common array is `Q (p, d)`. -/
theorem query_index (p : Fin 512) (q : Fin 2048) (d : Fin 128) :
    idx_main_v9 (idx_main_v11 (idx_main_v15 (ix2 p q) d)) = ix2 p d :=
  funext fun a => Fin.ext (by match a with | ⟨0, _⟩ => rfl | ⟨1, _⟩ => rfl)

/-- Entry (p, q, d) of the candidate rows laid out over the common array is `T (q, d)`. -/
theorem cand_index (p : Fin 512) (q : Fin 2048) (d : Fin 128) :
    idx_main_v10 (idx_main_v12 (idx_main_v15 (ix2 p q) d)) = ix2 q d :=
  funext fun a => Fin.ext (by match a with | ⟨0, _⟩ => rfl | ⟨1, _⟩ => rfl)

/-- The reference's last stage is the score array of its query rows and candidate rows. -/
theorem result_eq (x0 : (⟨S512x128, .f32⟩ : BufTy).Contents (Elt Ideal)) (x1 : (⟨S512, .i32⟩ : BufTy).Contents (Elt Ideal))
    (x2 : (⟨S1x2048x128, .f32⟩ : BufTy).Contents (Elt Ideal)) (x3 : (⟨S1000x128, .f32⟩ : BufTy).Contents (Elt Ideal)) :
    val_main_v16 (F := Ideal) x0 x1 x2 x3
      = scores (val_main_v7 (F := Ideal) x0 x1 x3) (val_main_v8 (F := Ideal) x2) := by
  funext i
  obtain ⟨p, q, rfl⟩ : ∃ (p : Fin 512) (q : Fin 2048), i = ix2 p q := ⟨i 0, i 1, eq_ix2 i⟩
  rw [scores_apply, val_main_v16_apply, val_main_v15_apply, val_main_cst_apply]
  show -(Ideal.ofBits .f32 0x00000000#32 + _) = _
  rw [Ideal.ofBits_zero_f32, zero_add]
  unfold score
  refine congrArg Neg.neg (Finset.sum_congr rfl fun d _ => ?_)
  rw [val_main_v14_apply, val_main_v13_apply, val_main_v11_apply, val_main_v9_apply, val_main_v12_apply,
    val_main_v10_apply, query_index, cand_index]
  rfl

end Cert.ReferenceIdeal.RefValue

end
-- ==== Proof.lean ====
/-
  The kernel and its reference compute the same scores over the extended reals.

  Both programs take head rows (512 × 128), relation indices (512), a tail array (1 × 2048 × 128) and a relation
  table (1000 × 128), form the query rows `Q` = head rows + table rows gathered at the (wrapped) relation indices
  and the candidate rows `T` = the tail array without its unit axis, and return, at (p, q),

      -(∑ d < 128, |Q (p, d) - T (q, d)|)          (`Cert.L1Score.scores Q T`, Proof/L1Spec.lean).

  The reference lays `Q` and `T` out over a 512 × 2048 × 128 array, subtracts, takes absolute values, sums the last
  axis from zero and negates (Proof/RefValue.lean, over the generated run and stage lemmas of the reference). The
  kernel transposes `T` on the host and runs 16 grid points of 32 query rows each; a point transposes its query
  block, and for each of its 32 rows repeats that row (as a column) along the 2048 lanes, subtracts the transposed
  candidates, takes absolute values, sums the FIRST axis and subtracts the sums from zero (Proof/RowPiece.lean, one
  row; Proof/BlockCanon.lean, the 32 stores as one block; Proof/KernelValue.lean, the 16 blocks as the whole array,
  read off the generated frame run). The two sides differ in the layout of the 128 terms of each sum and in
  `0 - s` against `-s`; neither difference is visible on the extended reals, with or without infinite entries, so the
  precondition (finite inputs) is not used by the value claim.

  The host operations that form `Q` and `T` are the same operations in both programs, on arguments that agree; they
  are carried as two terms (`queryRows`, `candRows`) and never opened — the gather in particular.

  The three frames are the generated frame certificates (the reference's from its generated run); the idealization
  rewrote no operation, so `preserves` is `True`.
-/
import proofs.«175675_j19370302505582_2_alg».proof.Defs
import proofs.«175675_j19370302505582_2_alg».proof.Proof.Gen.Kernel
import proofs.«175675_j19370302505582_2_alg».proof.Proof.Gen.Kernel.Frame
import proofs.«175675_j19370302505582_2_alg».proof.Proof.Gen.KernelIdeal
import proofs.«175675_j19370302505582_2_alg».proof.Proof.Gen.KernelIdeal.Frame
import proofs.«175675_j19370302505582_2_alg».proof.Proof.Gen.ReferenceIdeal
import proofs.«175675_j19370302505582_2_alg».proof.Proof.Gen.ReferenceIdeal.Run
import proofs.«175675_j19370302505582_2_alg».proof.Proof.Gen.ReferenceIdeal.Read
import proofs.«175675_j19370302505582_2_alg».proof.Proof.Gen.Pre_finite_inputs
import proofs.«175675_j19370302505582_2_alg».proof.Proof.KernelValue
import proofs.«175675_j19370302505582_2_alg».proof.Proof.RefValue

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-! ## The two programs form the same query rows and candidate rows -/

/-- The reference's query-row stage is the kernel's host chain: the same operations on the same arguments. -/
theorem query_same (a0 : (⟨Cert.ReferenceIdeal.S512x128, .f32⟩ : BufTy).Contents (Elt Ideal))
    (a1 : (⟨Cert.ReferenceIdeal.S512, .i32⟩ : BufTy).Contents (Elt Ideal))
    (a3 : (⟨Cert.ReferenceIdeal.S1000x128, .f32⟩ : BufTy).Contents (Elt Ideal)) :
    Cert.ReferenceIdeal.Read.val_main_v7 (F := Ideal) a0 a1 a3 = Cert.KernelIdeal.ArrayValue.queryRows a0 a1 a3 := rfl

/-- The reference's candidate-row stage is the kernel's reshape of the tail array. -/
theorem cands_same (a2 : (⟨Cert.ReferenceIdeal.S1x2048x128, .f32⟩ : BufTy).Contents (Elt Ideal)) :
    Cert.ReferenceIdeal.Read.val_main_v8 (F := Ideal) a2 = Cert.KernelIdeal.ArrayValue.candRows a2 := rfl

/-! ## Equal results -/

/-- Both runs end with the score array of the query rows and candidate rows of arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, query_same, cands_same,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
